-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x80 : Shape := ⟨2, ![2000000, 80]⟩
abbrev S2000000x4 : Shape := ⟨2, ![2000000, 4]⟩
abbrev S_ : Shape := ⟨0, ![]⟩

class Facts : Prop where
  bcast_S_S2000000x80 : S_.BroadcastsInDim S2000000x80 (![] : Fin 0 → Fin S2000000x80.rank)
  reducesTo_S2000000x80_S_d0_1 : S2000000x80.ReducesTo [0, 1] S_
  h_S_ : 0 < S_.numel
  bcast_S_S2000000x4 : S_.BroadcastsInDim S2000000x4 (![] : Fin 0 → Fin S2000000x4.rank)
  reducesTo_S2000000x4_S_d0_1 : S2000000x4.ReducesTo [0, 1] S_

variable [Facts]

def fn {F : FTy → Type} [FloatOps F] (main_arg0 : FVec F S2000000x80 .f32) (main_arg1 : FVec F S2000000x4 .f32) : IVec S_ 1 :=
  let main_v0 : FVec F S2000000x80 .f32 := Host.absf main_arg0
  let main_cst : FVec F S_ .f32 := constant S_ .f32 0x7F800000#32
  let main_v1 : FVec F S2000000x80 .f32 := broadcastInDim S2000000x80 ![] bcast_S_S2000000x80 main_cst
  let main_v2 : IVec S2000000x80 1 := cmpf .olt main_v0 main_v1
  let main_c : IVec S_ 1 := constantI S_ 1 1#1
  let main_v3 : IVec S_ 1 := (fun x v => Host.reduce IntOp.andi x v reducesTo_S2000000x80_S_d0_1 h_S_) main_v2 main_c
  let main_v4 : FVec F S2000000x4 .f32 := Host.absf main_arg1
  let main_cst_0 : FVec F S_ .f32 := constant S_ .f32 0x7F800000#32
  let main_v5 : FVec F S2000000x4 .f32 := broadcastInDim S2000000x4 ![] bcast_S_S2000000x4 main_cst_0
  let main_v6 : IVec S2000000x4 1 := cmpf .olt main_v4 main_v5
  let main_c_1 : IVec S_ 1 := constantI S_ 1 1#1
  let main_v7 : IVec S_ 1 := (fun x v => Host.reduce IntOp.andi x v reducesTo_S2000000x4_S_d0_1 h_S_) main_v6 main_c_1
  let main_v8 : IVec S_ 1 := andi main_v3 main_v7
  main_v8
-- ==== Kernel.lean ====
abbrev S2000000x80 : Shape := ⟨2, ![2000000, 80]⟩
abbrev S2000000x4 : Shape := ⟨2, ![2000000, 4]⟩
abbrev S2x1x1 : Shape := ⟨3, ![2, 1, 1]⟩
abbrev S50000x80 : Shape := ⟨2, ![50000, 80]⟩
abbrev S1x1x1 : Shape := ⟨3, ![1, 1, 1]⟩
abbrev S1x80 : Shape := ⟨2, ![1, 80]⟩
abbrev S80 : Shape := ⟨1, ![80]⟩
abbrev S1x1x80 : Shape := ⟨3, ![1, 1, 80]⟩
abbrev S1 : Shape := ⟨1, ![1]⟩
abbrev S_ : Shape := ⟨0, ![]⟩

abbrev nBuf : Space → Nat
  | .hbm => 5
  | .vmem => 5
  | .smem => 0
  | _ => 0

abbrev bufTy : (tb : Table) → Fin (tcTables nBuf tb) → BufTy
  | .hbm, ⟨0, _⟩ => ⟨S2000000x80, .f32⟩
  | .hbm, ⟨1, _⟩ => ⟨S2000000x4, .f32⟩
  | .hbm, ⟨2, _⟩ => ⟨S2x1x1, .f32⟩
  | .hbm, ⟨3, _⟩ => ⟨S_, .f32⟩
  | .hbm, ⟨4, _⟩ => ⟨S_, .f32⟩
  | .local _ .vmem, ⟨0, _⟩ => ⟨S50000x80, .f32⟩
  | .local _ .vmem, ⟨1, _⟩ => ⟨S50000x80, .f32⟩
  | .local _ .vmem, ⟨2, _⟩ => ⟨S1x1x1, .f32⟩
  | .local _ .vmem, ⟨3, _⟩ => ⟨S1x1x1, .f32⟩
  | .local _ .vmem, ⟨4, _⟩ => ⟨S1x80, .f32⟩
  | _, _ => ⟨S2000000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg1 : BitVec 32 := BitVec.ofNat 32 (i 1).val
  let c19_i32 : BitVec 32 := 19#32
  let v24 : BitVec 1 := Scalar.cmpi .eq arg1 c19_i32
  let v25 : BitVec 32 := Scalar.extui v24
  let c0_i32_8 : BitVec 32 := 0#32
  let v26 : BitVec 1 := Scalar.cmpi .ne v25 c0_i32_8
  v26

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S50000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x80_S1x80_0_0 : ∀ a, (![0, 0] : Fin 2 → Nat) a + S1x80.size a ≤ S1x80.size a
  h_S1x80 : 0 < S1x80.numel
  shapeCasts_S1x80_S1x80 : S1x80.ShapeCasts S1x80
  inb_S50000x80_S50000x80_0_0 : ∀ a, (![0, 0] : Fin 2 → Nat) a + S50000x80.size a ≤ S50000x80.size a
  h_S50000x80 : 0 < S50000x80.numel
  iota_S50000x80_d1_w32 : S50000x80.Iotas .tc 32 [1]
  reduces_S50000x80_S80 : S50000x80.Reduces [0] S80
  shapeCasts_S80_S1x80 : S80.ShapeCasts S1x80
  shapeCasts_S1x80_S1x1x80 : S1x80.ShapeCasts S1x1x80
  reduces_S1x1x80_S1 : S1x1x80.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S50000x80.size a ≤ S2000000x80.size a
  hwx0_0 : ∀ i : grid0.Coords, EltTy.bits .f32 = 32 ∨ (Rect.block (s := S2000000x80) S50000x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1.size a ≤ S2x1x1.size a
  hwx0_1 : ∀ i : grid0.Coords, EltTy.bits .f32 = 32 ∨ (Rect.block (s := S2x1x1) S1x1x1.size (cc0_transform_1 i) (hinb0_1 i)).WholeWords (EltTy.packing .f32)

variable [Facts₀]

abbrev win0_0 : Pipeline.Window sig grid0 :=
  Pipeline.Window.ofSpec (Memref.whole main_arg0) S50000x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S2000000x80 : Shape := ⟨2, ![2000000, 80]⟩
abbrev S2000000x4 : Shape := ⟨2, ![2000000, 4]⟩
abbrev S2 : Shape := ⟨1, ![2]⟩
abbrev S_ : Shape := ⟨0, ![]⟩
abbrev S2x1 : Shape := ⟨2, ![2, 1]⟩
abbrev S2000000x2 : Shape := ⟨2, ![2000000, 2]⟩

abbrev nBuf : Space → Nat
  | .hbm => 20
  | .vmem => 0
  | .smem => 0
  | _ => 0

abbrev bufTy : (tb : Table) → Fin (tcTables nBuf tb) → BufTy
  | .hbm, ⟨0, _⟩ => ⟨S2000000x80, .f32⟩
  | .hbm, ⟨1, _⟩ => ⟨S2000000x4, .f32⟩
  | .hbm, ⟨2, _⟩ => ⟨S2, .i32⟩
  | .hbm, ⟨3, _⟩ => ⟨S_, .i32⟩
  | .hbm, ⟨4, _⟩ => ⟨S2, .i32⟩
  | .hbm, ⟨5, _⟩ => ⟨S2, .i1⟩
  | .hbm, ⟨6, _⟩ => ⟨S_, .i32⟩
  | .hbm, ⟨7, _⟩ => ⟨S2, .i32⟩
  | .hbm, ⟨8, _⟩ => ⟨S2, .i32⟩
  | .hbm, ⟨9, _⟩ => ⟨S2, .i32⟩
  | .hbm, ⟨10, _⟩ => ⟨S2x1, .i32⟩
  | .hbm, ⟨11, _⟩ => ⟨S2000000x2, .f32⟩
  | .hbm, ⟨12, _⟩ => ⟨S_, .f32⟩
  | .hbm, ⟨13, _⟩ => ⟨S2000000x2, .f32⟩
  | .hbm, ⟨14, _⟩ => ⟨S2000000x2, .i1⟩
  | .hbm, ⟨15, _⟩ => ⟨S_, .f32⟩
  | .hbm, ⟨16, _⟩ => ⟨S2000000x2, .f32⟩
  | .hbm, ⟨17, _⟩ => ⟨S2000000x2, .f32⟩
  | .hbm, ⟨18, _⟩ => ⟨S_, .f32⟩
  | .hbm, ⟨19, _⟩ => ⟨S_, .f32⟩
  | _, _ => ⟨S2000000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S2_S2x1_0 : S2.BroadcastsInDim S2x1 (![0] : Fin 1 → Fin S2x1.rank)
  bcast_S_S2000000x2 : S_.BroadcastsInDim S2000000x2 (![] : Fin 0 → Fin S2000000x2.rank)
  reducesTo_S2000000x2_S_d0_1 : S2000000x2.ReducesTo [0, 1] S_
  h_S_ : 0 < S_.numel
  gather_S2000000x80_S2x1_S2000000x2_0_1_n_n_1_1_20000001_wf : GatherDims.WF S2000000x80 S2x1 S2000000x2 [0] [1] [] [1] [] 1 ![2000000, 1]

variable [Facts₀]

def gather_S2000000x80_S2x1_S2000000x2_0_1_n_n_1_1_20000001 : GatherDims S2000000x80 S2x1 S2000000x2 where
  offsetDims := [0]
  collapsedSliceDims := [1]
  operandBatchingDims := []
  startIndicesBatchingDims := []
  startIndexMap := [1]
  indexVectorDim := 1
  sliceSizes := ![2000000, 1]
  wf := gather_S2000000x80_S2x1_S2000000x2_0_1_n_n_1_1_20000001_wf

class Facts : Prop extends Facts₀ where

variable [Facts]
-- ==== Proof.KPieces.lean ====
/-
  What each control case of the kernel body leaves behind, as a value.

  The body keeps a running row of 80 partial sums in a scratch row. At the first block of a core the row is
  first overwritten with zeros and then the block's column sums are added to it; at every later block the
  column sums are added to what the block before left; at the last block of a core the row, after that
  addition, is summed across its 80 lanes into the core's one output element. Each store overwrites its
  whole buffer, so what a buffer holds after the body is the payload of the last store into it, with every
  load of the scratch row reading what the store before it wrote.
-/
import proofs.«154371_j83133386982264_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later block that is not the last of its core: the scratch row `xs` becomes `xs` plus the block's column sums. -/
theorem sout_B (c : Dev nD) (i : grid0.Coords) (a2 : Memref sig .tc .vmem S50000x80 .f32) (h2 : a2.IsWhole)
    (a3 : Memref sig .tc .vmem S1x1x1 .f32) (h3 : a3.IsWhole) (a4 : Memref sig .tc .vmem S1x80 .f32) (h4 : a4.IsWhole)
    (hc0 : ¬cond0_0 i) (hc1 : ¬cond0_1 i) (x : Vec F S50000x80 .f32) (xs : Vec F S1x80 .f32) :
    sout0_B_0 c i a2 h2 a3 h3 a4 h4 hc0 hc1 x xs = k0_pay2 x xs := by
  unfold sout0_B_0
  rw [View.read_writes_eq_canon _ _ _ (scover0_B_0 c i a2 h2 a3 h3 a4 h4 hc0 hc1 x xs)]
  unfold kernelRun0_B
  dsimp only
  sl_unfold_words
  rw [View.canon_unit_zero hz2]
  simp only [View.readAt_eq_ld, h2.read_unread, h4.read_unread, View.ld_unit_zero (S := S50000x80) hz2,
    View.ld_unit_zero (S := S1x80) hz2]

/-- The last block of a core: the scratch row is updated in the same way, -/
theorem sout_C (c : Dev nD) (i : grid0.Coords) (a2 : Memref sig .tc .vmem S50000x80 .f32) (h2 : a2.IsWhole)
    (a3 : Memref sig .tc .vmem S1x1x1 .f32) (h3 : a3.IsWhole) (a4 : Memref sig .tc .vmem S1x80 .f32) (h4 : a4.IsWhole)
    (hc0 : ¬cond0_0 i) (hc1 : cond0_1 i) (x : Vec F S50000x80 .f32) (xs : Vec F S1x80 .f32) :
    sout0_C_0 c i a2 h2 a3 h3 a4 h4 hc0 hc1 x xs = k0_pay2 x xs := by
  unfold sout0_C_0
  rw [View.read_writes_eq_canon _ _ _ (scover0_C_0 c i a2 h2 a3 h3 a4 h4 hc0 hc1 x xs)]
  unfold kernelRun0_C
  dsimp only
  sl_unfold_words
  rw [View.canon_unit_zero hz2]
  simp only [View.readAt_eq_ld, h2.read_unread, h4.read_unread, View.ld_unit_zero (S := S50000x80) hz2,
    View.ld_unit_zero (S := S1x80) hz2]

/-- and the output element is the lane sum of the UPDATED row: the load that feeds it reads what the store
    just before it wrote. -/
theorem out_C (c : Dev nD) (i : grid0.Coords) (a2 : Memref sig .tc .vmem S50000x80 .f32) (h2 : a2.IsWhole)
    (a3 : Memref sig .tc .vmem S1x1x1 .f32) (h3 : a3.IsWhole) (a4 : Memref sig .tc .vmem S1x80 .f32) (h4 : a4.IsWhole)
    (hc0 : ¬cond0_0 i) (hc1 : cond0_1 i) (x : Vec F S50000x80 .f32) (xs : Vec F S1x80 .f32) :
    out0_C_1 c i a2 h2 a3 h3 a4 h4 hc0 hc1 x xs = k0_pay3 (k0_pay2 x xs) := by
  unfold out0_C_1
  rw [View.read_writes_eq_canon _ _ _ (cover0_C_1 c i a2 h2 a3 h3 a4 h4 hc0 hc1 x xs)]
  unfold kernelRun0_C
  dsimp only
  sl_unfold_words
  rw [View.canon_unit_zero hz3]
  simp only [View.readAt_eq_ld, h2.read_unread, h4.read_unread, View.ld_unit_zero (S := S50000x80) hz2,
    View.ld_unit_zero (S := S1x80) hz2, View.readCov_unit_zero (S := S1x80) _ hz2]

/-- The first block of a core: the row is zeroed first, so it ends at zero plus the block's column sums. -/
theorem sout_A (c : Dev nD) (i : grid0.Coords) (a2 : Memref sig .tc .vmem S50000x80 .f32) (h2 : a2.IsWhole)
    (a3 : Memref sig .tc .vmem S1x1x1 .f32) (h3 : a3.IsWhole) (a4 : Memref sig .tc .vmem S1x80 .f32) (h4 : a4.IsWhole)
    (hc0 : cond0_0 i) (hc1 : ¬cond0_1 i) (x : Vec F S50000x80 .f32) :
    sout0_A_0 c i a2 h2 a3 h3 a4 h4 hc0 hc1 x = k0_pay2 x k0_pay1 := by
  unfold sout0_A_0
  rw [View.read_writes_eq_canon _ _ _ (scover0_A_0 c i a2 h2 a3 h3 a4 h4 hc0 hc1 x)]
  unfold kernelRun0_A
  dsimp only
  sl_unfold_words
  rw [View.canon_cons_unit_zero (S := S1x80) hz2]
  simp only [View.readAt_eq_ld, h2.read_unread, View.ld_unit_zero (S := S50000x80) hz2,
    View.readCov_unit_zero (S := S1x80) _ hz2]

end Cert.KernelIdeal.Pieces

end
-- ==== Proof.KBlock.lean ====
/-
  Where the blocks sit.

  The grid has 40 points in row-major order of (core, step): point `t` is step `t % 20` of core `t / 20`.
  The score window's block at point `t` is block number `t` of the 40 row blocks of the array: its row `r` is
  row `50000 t + r` of the array, all 80 lanes. The output window's block at point `t` is the one element of
  core `t / 20`; it is written back only at the last step of each core (points 19 and 39), and those two
  write-backs cover the two elements of the output array.
-/
import proofs.«154371_j83133386982264_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Block

open Cert.KernelIdeal Cert.KernelIdeal.Gen

variable {F : FTy → Type} [FloatOps F]
variable (m : (ℓ : Loc nD τ sig) → Buf (Elt F) ℓ)

/-- The printed index maps, decided over the 40 grid points: the score block's number is the point's number, and
    the output block's number is the point's core. -/
theorem idx_facts : ∀ t : Fin cfg0.N, win0_0.index t (0 : Fin 2) = t.val ∧ win0_0.index t (1 : Fin 2) = 0
    ∧ win0_1.index t (0 : Fin 3) = t.val / 20 ∧ win0_1.index t (1 : Fin 3) = 0 ∧ win0_1.index t (2 : Fin 3) = 0 :=
  (by decide +kernel : ∀ t : Fin grid0.N, _)

/-- Row `r`, lane `l` of the score block at point `t` is row `50000 t + r`, lane `l` of the score array. -/
theorem iblk_apply (c : Dev nD) (t : Fin cfg0.N) (r : Fin 50000) (l : Fin 80) (hr : t.val * 50000 + r.val < 2000000) :
    (iblk m c 0 t : Vec F S50000x80 .f32) (ix2 r l)
      = m ((c : Thread nD τ).loc main_arg0) (ix2 ⟨t.val * 50000 + r.val, hr⟩ l) := by
  obtain ⟨e0, e1, -, -, -⟩ := idx_facts t
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 2) * 50000 + 1 * r.val = t.val * 50000 + r.val; rw [e0]; omega
  | ⟨1, _⟩ => show win0_0.index t (1 : Fin 2) * 80 + 1 * l.val = l.val; rw [e1]; omega

/-- An element of the output array is in point `t`'s block iff its core coordinate is the point's core. -/
theorem mem_blk1 (t : Fin cfg0.N) (i : S2x1x1.Idx) :
    i ∈ ((cfg0.win 1).blk t).view.set ↔ ∀ a : Fin 3, win0_1.index t a * S1x1x1.size a ≤ (i a).val ∧ (i a).val < win0_1.index t a * S1x1x1.size a + S1x1x1.size a := by
  show i ∈ ((View.whole main_v0).slice (win0_1.rect t)).set ↔ _
  rw [View.set_slice_whole, Rect.mem_set_unit]
  exact Iff.rfl

/-- Every element of the output array is written back by the last point of its core. -/
theorem cover1 (i : S2x1x1.Idx) :
    ∃ t : Fin cfg0.N, (cfg0.win 1).flush t = true ∧ i ∈ ((cfg0.win 1).blk t).view.set := by
  have hN : cfg0.N = 40 := N_0
  have hN' : grid0.N = 40 := N_0
  have hi0 : (i 0).val < 2 := (i 0).isLt
  have hi1 : (i 1).val < 1 := (i 1).isLt
  have hi2 : (i 2).val < 1 := (i 2).isLt
  refine ⟨⟨(i 0).val * 20 + 19, by omega⟩, (flush0_1 _).mpr (by show ((i 0).val * 20 + 19) % 20 = 19; omega), ?_⟩
  rw [mem_blk1]
  obtain ⟨-, -, e0, e1, e2⟩ := idx_facts ⟨(i 0).val * 20 + 19, by omega⟩
  have e0' : win0_1.index ⟨(i 0).val * 20 + 19, by omega⟩ (0 : Fin 3) = (i 0).val := by rw [e0]; show ((i 0).val * 20 + 19) / 20 = _; omega
  intro a
  match a with
  | ⟨0, _⟩ => show win0_1.index _ (0 : Fin 3) * 1 ≤ (i 0).val ∧ (i 0).val < win0_1.index _ (0 : Fin 3) * 1 + 1; rw [e0']; omega
  | ⟨1, _⟩ => show win0_1.index _ (1 : Fin 3) * 1 ≤ (i 1).val ∧ (i 1).val < win0_1.index _ (1 : Fin 3) * 1 + 1; rw [e1]; omega
  | ⟨2, _⟩ => show win0_1.index _ (2 : Fin 3) * 1 ≤ (i 2).val ∧ (i 2).val < win0_1.index _ (2 : Fin 3) * 1 + 1; rw [e2]; omega

end Cert.KernelIdeal.Block

end
-- ==== Proof.Spec.lean ====
/-
  What both programs compute, as one function of the score array.

  A score is kept when it is at least the threshold (the f32 word nearest to 0.2, the same word in both
  programs) and otherwise counts as zero. The result is the sum, over all 2 000 000 rows, of the kept scores
  in columns 3 and 4. The kernel reaches it by lanes: every one of the 80 lanes is summed, a lane other than
  3 and 4 contributing zero, over 50 000-row blocks, 20 blocks to a core, 2 cores; block `k` of core `a`
  holds rows `(20 a + k) · 50000 …`. Everything is stated on the extended reals, where addition is
  commutative and associative, so no finiteness is needed to regroup the sums.
-/
import Idealize.ShloMosaic.PureOps.Ideal
import Idealize.ShloMosaic.Lib.ValueIdx

noncomputable section

namespace Cert.MaskSum

open Idealize.ShloMosaic Idealize.ShloMosaic.ValueIdx

/-- A score is kept when it is at least the threshold; otherwise it counts as zero. -/
def keep (v : EReal) : EReal :=
  Scalar.select (Ideal.cmp .oge v (Ideal.ofBits .f32 0x3E4CCCCD#32)) v 0

/-- The two class columns. -/
def col : Fin 2 → Fin 80 := ![3, 4]

/-- The result: over every row, the kept scores of columns 3 and 4. -/
def total (X : (⟨2, ![2000000, 80]⟩ : Shape).Idx → EReal) : EReal :=
  ∑ r : Fin 2000000, ∑ j : Fin 2, keep (X (ix2 r (col j)))

/-- What lane `l` of the 80 contributes for a score `v`: the kept score in lanes 3 and 4, zero elsewhere. -/
def lane (l : Fin 80) (v : EReal) : EReal := if l.val = 3 ∨ l.val = 4 then keep v else 0

/-- Row `r` of block `k` of core `a`, as a row of the whole array. -/
def row (a : Fin 2) (k : Fin 20) (r : Fin 50000) : Fin 2000000 :=
  ⟨(a.val * 20 + k.val) * 50000 + r.val, by omega⟩

/-- What core `a` produces: all 80 lanes, summed over its 20 blocks of 50 000 rows. -/
def coreSum (X : (⟨2, ![2000000, 80]⟩ : Shape).Idx → EReal) (a : Fin 2) : EReal :=
  ∑ l : Fin 80, ∑ k : Fin 20, ∑ r : Fin 50000, lane l (X (ix2 (row a k r) l))

end Cert.MaskSum

end
-- ==== Proof.Pay.lean ====
/-
  The three values the kernel stores, each read at an index over the extended reals.

  * The reset value is the zero splat: `0` at every index.
  * The accumulated value: at lane `l` it is the old scratch value plus the sum, over the block's 50 000 rows, of what
    lane `l` contributes for the score in that row. The mask is (lane = 3 or lane = 4) and (score ≥ threshold); the
    lane part is decided once over the 80 lanes, and what is left is exactly `lane l` of the score.
  * The final value: the sum of the 80 lanes of the scratch row, the same at every index of the [1, 1, 1] result.
-/
import proofs.«154371_j83133386982264_2_alg».proof.Proof.Gen.KernelIdeal.Skeleton
import proofs.«154371_j83133386982264_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayValue

open Idealize.ShloMosaic Idealize.ShloMosaic.ValueIdx Cert.KernelIdeal Cert.KernelIdeal.Gen Cert.MaskSum

/-! ## The reset value -/

/-- The zero splat, cast to its own shape, is `0` at every index: the zero word denotes `0`. -/
theorem pay1_apply (y : S1x80.Idx) : k0_pay1 (F := Ideal) y = 0 := by
  unfold k0_pay1
  rw [shapeCast_self]
  exact Ideal.ofBits_zero_f32

/-! ## The accumulated value -/

/-- The integer part of the mask at lane `l`, `(false ∨ l = 3) ∨ l = 4` on 32-bit words, is the bit of
    "`l` is 3 or 4": decided over the 80 lanes. -/
theorem laneBit : ∀ l : Fin 80,
    IntOp.ori (IntOp.ori 0#1 (IntOp.cmpi .eq (BitVec.ofNat 32 l.val) 3#32)) (IntOp.cmpi .eq (BitVec.ofNat 32 l.val) 4#32)
      = if l.val = 3 ∨ l.val = 4 then 1#1 else 0#1 := by
  decide

/-- One masked element: select on (lane bit ∧ score ≥ threshold) between the score and the zero word. In lanes 3 and 4
    the conjunction is the comparison alone, so the select is `keep`; in every other lane the conjunction is `0` and
    the select is the zero word, which denotes `0`. -/
theorem maskSelect (l : Fin 80) (v : EReal) :
    Scalar.select
        (IntOp.andi
          (IntOp.ori (IntOp.ori 0#1 (IntOp.cmpi .eq (BitVec.ofNat 32 l.val) 3#32)) (IntOp.cmpi .eq (BitVec.ofNat 32 l.val) 4#32))
          (Ideal.cmp .oge v (Ideal.ofBits .f32 0x3E4CCCCD#32)))
        v (Ideal.ofBits .f32 0x00000000#32)
      = lane l v := by
  rw [laneBit l, Ideal.ofBits_zero_f32]
  unfold lane keep
  by_cases h : l.val = 3 ∨ l.val = 4
  · rw [if_pos h, if_pos h, show ∀ b : BitVec 1, IntOp.andi 1#1 b = b from by decide]
  · rw [if_neg h, if_neg h, show ∀ b : BitVec 1, IntOp.andi 0#1 b = 0#1 from by decide, select_zero]

/-- The lane counter (an iota along axis 1) at row `r`, lane `l` is the word of `l`. -/
theorem iota_lane (r : Fin 50000) (l : Fin 80) :
    iota .tc S50000x80 32 [1] iota_S50000x80_d1_w32 (ix2 r l) = BitVec.ofNat 32 l.val :=
  iota_single_apply .tc S50000x80 32 1 iota_S50000x80_d1_w32 (ix2 r l)

/-- The row sum's index at lane `l` with row `r` inserted on axis 0 is `(r, l)`. -/
theorem lift_eq (r : Fin 50000) (l : Fin 80) :
    reduces_S50000x80_S80.lift (ix1 l) r = ix2 r l := by
  funext d; match d with | ⟨0, _⟩ => rfl | ⟨1, _⟩ => rfl

/-- At lane `l`: the old scratch value plus the sum over the 50 000 rows of lane `l`'s contribution. The two casts to
    the same shape are identities, the addition is pointwise, the cast [80] → [1, 80] reads lane `l`, the reduction
    over axis 0 with a zero accumulator is the sum over the rows, and each summand is one masked element. -/
theorem pay2_apply (x : Vec Ideal S50000x80 .f32) (a : Vec Ideal S1x80 .f32) (l : Fin 80) :
    k0_pay2 (F := Ideal) x a (ix2 (0 : Fin 1) l) = a (ix2 (0 : Fin 1) l) + ∑ r : Fin 50000, lane l (x (ix2 r l)) := by
  unfold k0_pay2
  rw [shapeCast_self, addf_apply]
  refine congrArg (a (ix2 (0 : Fin 1) l) + ·) ?_
  rw [shapeCast_a_1a_apply]
  refine (Ideal.multiReduction_add_single _ _ _ _ _ (ix1 l)).trans ?_
  refine Finset.sum_congr rfl fun (r : Fin 50000) _ => ?_
  rw [lift_eq r l]
  simp only [select_apply, andi, ori, cmpi, cmpf_apply, broadcast_apply]
  rw [iota_lane r l]
  exact maskSelect l (x (ix2 r l))

/-! ## The final value -/

/-- The indices of a [1, 1, 80] array are its 80 lanes: `(0, 0, l) ↔ l`. -/
def laneEquiv : S1x1x80.Idx ≃ Fin 80 where
  toFun i := i 2
  invFun l := ix3 (0 : Fin 1) (0 : Fin 1) l
  left_inv i := by
    funext d
    refine Fin.ext ?_
    match d with
    | ⟨0, _⟩ => have h : (i 0).val < 1 := (i 0).isLt; show 0 = (i 0).val; omega
    | ⟨1, _⟩ => have h : (i 1).val < 1 := (i 1).isLt; show 0 = (i 1).val; omega
    | ⟨2, _⟩ => rfl
  right_inv _ := rfl

/-- At every index of the [1, 1, 1] result: the sum of the 80 lanes of the scratch row. The broadcast reads the
    extracted element, the cast [1] → [1, 1, 1] reads the one reduced element, the reduction into a shape whose only
    axis has size one is the sum over every index of the [1, 1, 80] source, those indices are the 80 lanes, and the cast
    [1, 80] → [1, 1, 80] at `(0, 0, l)` reads `(0, l)`. -/
theorem pay3_apply (a : Vec Ideal S1x80 .f32) (y : S1x1x1.Idx) :
    k0_pay3 (F := Ideal) a y = ∑ l : Fin 80, a (ix2 (0 : Fin 1) l) := by
  unfold k0_pay3
  rw [broadcast_apply]
  unfold extractAt
  refine (shapeCast_apply _ _ _ (ix1 (0 : Fin 1)) ?_).trans ?_
  · rw [Shape.rowMajor_val_one, Shape.rowMajor_val_three]; rfl
  refine (Ideal.multiReduction_add_total _ _ _ (fun b => ?_) _ _ _).trans ?_
  · match b with | ⟨0, _⟩ => rfl
  refine (Equiv.sum_comp laneEquiv.symm _).symm.trans ?_
  exact Finset.sum_congr rfl fun l _ => shapeCast_ab_1ab_apply a _ (0 : Fin 1) (0 : Fin 1) l

end Cert.KernelIdeal.PayValue

end
-- ==== Proof.KAcc.lean ====
/-
  The running sums, point by point.

  After step `k` of core `a` (grid point `20 a + k`) lane `l` of the scratch row holds the kept scores of
  lane `l` summed over the rows of blocks `20 a … 20 a + k`: zero plus the first block's column sums at the
  core's first step, and the previous row plus the block's column sums at each later step. This is proved by
  induction on the point, never by enumerating the grid. At the last step of a core the output element is the
  sum of that row over its 80 lanes, which is the core's whole contribution.
-/
import proofs.«154371_j83133386982264_2_alg».proof.Proof.KPieces
import proofs.«154371_j83133386982264_2_alg».proof.Proof.KBlock
import proofs.«154371_j83133386982264_2_alg».proof.Proof.Pay
import proofs.«154371_j83133386982264_2_alg».proof.Proof.Spec

noncomputable section

open Idealize.ShloMosaic Idealize.ShloMosaic.TcCoe Idealize.SL.Sem Idealize.ShloMosaic.ValueIdx

namespace Cert.KernelIdeal.Acc

open Cert.KernelIdeal Cert.KernelIdeal.Gen Cert.MaskSum Cert.KernelIdeal.Pieces Cert.KernelIdeal.Block
open Cert.KernelIdeal.PayValue

variable (m : (ℓ : Loc nD τ sig) → Buf (Elt Ideal) ℓ)

/-- Lane `l`'s kept scores summed over the 50 000 rows of row block `b` of the array `X` (there are 40 blocks;
    a number past them contributes nothing). -/
def blockSum (X : (⟨2, ![2000000, 80]⟩ : Shape).Idx → EReal) (b : ℕ) (l : Fin 80) : EReal :=
  if hb : b < 40 then ∑ r : Fin 50000, lane l (X (ix2 ⟨b * 50000 + r.val, by have := r.isLt; omega⟩ l)) else 0

/-- One step of the accumulation at point `t`: the row `xs` becomes `xs` plus block `t`'s column sums. -/
theorem pay2_blk (c : Dev nD) (t : Fin cfg0.N) (xs : Vec Ideal S1x80 .f32) (l : Fin 80) :
    k0_pay2 (F := Ideal) (iblk m c 0 t) xs (ix2 (0 : Fin 1) l)
      = xs (ix2 (0 : Fin 1) l) + blockSum (m ((c : Thread nD τ).loc main_arg0)) t.val l := by
  have hN : t.val < 40 := lt_of_lt_of_eq t.isLt (show cfg0.N = 40 from N_0)
  refine (pay2_apply (iblk m c 0 t) xs l).trans ?_
  unfold blockSum
  rw [dif_pos hN]
  refine congrArg (xs (ix2 (0 : Fin 1) l) + ·) (Finset.sum_congr rfl fun r _ => ?_)
  exact congrArg (lane l) (iblk_apply m c t r l _)

/-- At the first step of a core the row is the first block's column sums. -/
theorem scratch_first (c : Dev nD) (t : Fin cfg0.N) (h0 : t.val % 20 = 0) (l : Fin 80) :
    (outsAt0 m c t.val t.isLt).2 (ix2 (0 : Fin 1) l) = blockSum (m ((c : Thread nD τ).loc main_arg0)) t.val l := by
  have h1 : ¬t.val % 20 = 19 := by omega
  rw [outsAt0_A m c t h0 h1]
  dsimp only
  rw [sout_A]
  refine (pay2_blk m c t _ l).trans ?_
  rw [pay1_apply, zero_add]

/-- At a later step it is the row of the step before plus the block's column sums. -/
theorem scratch_later (c : Dev nD) (t : Fin cfg0.N) (h0 : ¬t.val % 20 = 0) (l : Fin 80) :
    (outsAt0 m c t.val t.isLt).2 (ix2 (0 : Fin 1) l)
      = (outsAt0 m c (t.val - 1) (Nat.lt_of_le_of_lt (Nat.sub_le _ _) t.isLt)).2 (ix2 (0 : Fin 1) l)
        + blockSum (m ((c : Thread nD τ).loc main_arg0)) t.val l := by
  by_cases h1 : t.val % 20 = 19
  · rw [outsAt0_C m c t h0 h1]
    dsimp only
    rw [sout_C]
    exact pay2_blk m c t _ l
  · rw [outsAt0_B m c t h0 h1]
    dsimp only
    rw [sout_B]
    exact pay2_blk m c t _ l

/-- At the last step of a core the output element is the lane sum of the row as that step leaves it. -/
theorem out_last (c : Dev nD) (t : Fin cfg0.N) (h1 : t.val % 20 = 19) (y : S1x1x1.Idx) :
    (outsAt0 m c t.val t.isLt).1 y = ∑ l : Fin 80, (outsAt0 m c t.val t.isLt).2 (ix2 (0 : Fin 1) l) := by
  have h0 : ¬t.val % 20 = 0 := by omega
  rw [outsAt0_C m c t h0 h1]
  dsimp only
  rw [out_C, sout_C]
  exact pay3_apply _ y

/-- THE RUNNING SUM: after point `n` lane `l` of the row holds the column sums of the blocks of `n`'s core up
    to and including block `n`. -/
theorem scratch_eq (c : Dev nD) : ∀ (n : ℕ) (h : n < cfg0.N) (l : Fin 80),
    (outsAt0 m c n h).2 (ix2 (0 : Fin 1) l)
      = ∑ k ∈ Finset.range (n % 20 + 1), blockSum (m ((c : Thread nD τ).loc main_arg0)) (n / 20 * 20 + k) l
  | 0, h, l => by
    refine (scratch_first m c ⟨0, h⟩ rfl l).trans ?_
    simp only [Nat.zero_mod, Nat.zero_div, Nat.zero_mul, Nat.zero_add, Finset.sum_range_one]
  | n + 1, h, l => by
    by_cases h0 : (n + 1) % 20 = 0
    · refine (scratch_first m c ⟨n + 1, h⟩ h0 l).trans ?_
      show blockSum _ (n + 1) l = _
      have e1 : (n + 1) / 20 * 20 = n + 1 := by omega
      rw [h0, Nat.zero_add, Finset.sum_range_one, Nat.add_zero, e1]
    · refine (scratch_later m c ⟨n + 1, h⟩ h0 l).trans ?_
      show (outsAt0 m c n _).2 (ix2 (0 : Fin 1) l) + blockSum _ (n + 1) l = _
      rw [scratch_eq c n _ l]
      have e1 : (n + 1) % 20 = n % 20 + 1 := by omega
      have e2 : (n + 1) / 20 = n / 20 := by omega
      have e3 : n / 20 * 20 + (n % 20 + 1) = n + 1 := by omega
      rw [e1, e2, Finset.sum_range_succ _ (n % 20 + 1), e3]

/-- So at the last step of core `t / 20` the output element is that core's whole contribution. -/
theorem core_out (c : Dev nD) (t : Fin cfg0.N) (h1 : t.val % 20 = 19) (y : S1x1x1.Idx) (ha : t.val / 20 < 2) :
    (outsAt0 m c t.val t.isLt).1 y = coreSum (m ((c : Thread nD τ).loc main_arg0)) ⟨t.val / 20, ha⟩ := by
  rw [out_last m c t h1 y]
  unfold coreSum
  refine Finset.sum_congr rfl fun l _ => ?_
  rw [scratch_eq m c t.val t.isLt l, h1]
  show ∑ k ∈ Finset.range 20, _ = _
  rw [Finset.sum_range]
  refine Finset.sum_congr rfl fun k _ => ?_
  have hk : t.val / 20 * 20 + k.val < 40 := by have := k.isLt; omega
  unfold blockSum
  rw [dif_pos hk]
  rfl

end Cert.KernelIdeal.Acc

end
-- ==== Proof.KOut.lean ====
/-
  The output array after the region.

  Only the last step of a core writes the core's output element back, and what it writes is the core's whole
  contribution; the two write-backs (points 19 and 39) cover the two elements of the array.
-/
import proofs.«154371_j83133386982264_2_alg».proof.Proof.KAcc

noncomputable section

open Idealize.ShloMosaic Idealize.ShloMosaic.TcCoe Idealize.SL.Sem Idealize.ShloMosaic.ValueIdx

namespace Cert.KernelIdeal.OutValue

open Cert.KernelIdeal Cert.KernelIdeal.Gen Cert.MaskSum Cert.KernelIdeal.Block Cert.KernelIdeal.Acc
open Idealize.ShloMosaic.Pipeline (Dat)

variable (m : (ℓ : Loc nD τ sig) → Buf (Elt Ideal) ℓ) (ρ : Dev nD → PrngReg)

/-- The output array after the region: element `a` is core `a`'s contribution. -/
def G (c : Dev nD) : Buf (Elt Ideal) ((c : Thread nD τ).loc main_v0) :=
  ((fun j => coreSum (m ((c : Thread nD τ).loc main_arg0)) ⟨(j 0).val, (j 0).isLt⟩) : S2x1x1.Idx → EReal)

/-- What a flushing point (the last step of a core) writes back is that core's element of `G`: the block's one
    element sits at the core's coordinate of the array. -/
theorem flushed_eq (c : Dev nD) (t : Fin cfg0.N) (hf : (cfg0.win 1).flush t = true) :
    (dats m 0 c).flushed 1 t = ((cfg0.win 1).blk t).view.read (Elt Ideal) (G m c) := by
  have h19 : t.val % 20 = 19 := (flush0_1 t).mp hf
  have hN : t.val < 40 := lt_of_lt_of_eq t.isLt (show cfg0.N = 40 from N_0)
  obtain ⟨-, -, e0, -, -⟩ := idx_facts t
  show (cfg0.win 1).cut (grid0.coords t) ((dats m 0 c).after 1 t) = _
  rw [after0_1]
  funext y
  have ha : t.val / 20 < 2 := by clear e0 hf; omega
  have key := core_out m c t h19 ((cfg0.win 1).xinj (grid0.coords t) y) ha
  refine key.trans ?_
  rw [View.read_apply, cast_eq]
  unfold G
  have hidx : (((cfg0.win 1).blk t).view.emb y (0 : Fin 3)).val = t.val / 20 := by
    show win0_1.index t (0 : Fin 3) * 1 + 1 * (y 0).val = t.val / 20
    have hy : (y 0).val < 1 := (y 0).isLt
    rw [e0]; omega
  have hfin : (⟨t.val / 20, ha⟩ : Fin 2)
      = ⟨(((cfg0.win 1).blk t).view.emb y (0 : Fin 3)).val, (((cfg0.win 1).blk t).view.emb y (0 : Fin 3)).isLt⟩ :=
    Fin.ext hidx.symm
  exact congrArg (coreSum (m ((c : Thread nD τ).loc main_arg0))) hfin

/-- The two write-backs cover the array, so it ends holding `G`. -/
theorem final (c : Dev nD) : (dats m 0 c).arrAt 1 cfg0.N = G m c :=
  (dats m 0 c).arrAt_eq_of_cover 1 (G m c) (flushed_eq m c) (fun i => cover1 i)

end Cert.KernelIdeal.OutValue

end
-- ==== Proof.Algebra.lean ====
/-
  Regrouping the lane-by-lane, block-by-block sum of the two cores into the plain sum over all rows.

  Two facts about finite sums in a commutative additive monoid carry the whole argument:
  * over the 80 lanes, a summand that vanishes outside lanes 3 and 4 sums to its values at 3 and 4;
  * (core, block, row in block) ↦ (20 · core + block) · 50000 + row is a bijection from
    2 × 20 × 50000 onto the 2 000 000 rows, so the triple sum over it is the sum over all rows.
-/
import proofs.«154371_j83133386982264_2_alg».proof.Proof.Spec

noncomputable section

namespace Cert.MaskSum

open Idealize.ShloMosaic Idealize.ShloMosaic.ValueIdx

/-- (core, block, row in block) ↔ row of the whole array: mixed-radix digits 2 · 20 · 50000. -/
def rowEquiv : Fin 2 × Fin 20 × Fin 50000 ≃ Fin 2000000 where
  toFun p := row p.1 p.2.1 p.2.2
  invFun R :=
    (⟨R.val / 1000000, by omega⟩, ⟨R.val / 50000 % 20, by omega⟩, ⟨R.val % 50000, by omega⟩)
  left_inv := by
    rintro ⟨a, k, r⟩
    refine Prod.ext (Fin.ext ?_) (Prod.ext (Fin.ext ?_) (Fin.ext ?_)) <;>
      simp only [row] <;> omega
  right_inv := by
    intro R
    refine Fin.ext ?_
    simp only [row]
    omega

/-- The triple sum over cores, blocks and rows of a block is the sum over all rows. -/
theorem sum_rows {M : Type} [AddCommMonoid M] (F : Fin 2000000 → M) :
    ∑ a : Fin 2, ∑ k : Fin 20, ∑ r : Fin 50000, F (row a k r) = ∑ R : Fin 2000000, F R := by
  rw [← rowEquiv.sum_comp F, Fintype.sum_prod_type]
  refine Finset.sum_congr rfl fun a _ => ?_
  rw [Fintype.sum_prod_type]
  rfl

/-- Over the 80 lanes, a summand that is zero outside lanes 3 and 4 sums to its values there. -/
theorem sum_lanes {M : Type} [AddCommMonoid M] (g : Fin 80 → M) :
    ∑ l : Fin 80, (if l.val = 3 ∨ l.val = 4 then g l else 0) = g 3 + g 4 := by
  rw [Fintype.sum_eq_add (3 : Fin 80) 4 (by decide)]
  · rw [if_pos (show (3 : Fin 80).val = 3 ∨ (3 : Fin 80).val = 4 from Or.inl rfl),
      if_pos (show (4 : Fin 80).val = 3 ∨ (4 : Fin 80).val = 4 from Or.inr rfl)]
  · intro l hl
    rw [if_neg]
    rintro (h | h)
    · exact hl.1 (Fin.ext h)
    · exact hl.2 (Fin.ext h)

/-- The sum over the two class columns is the value at column 3 plus the value at column 4. -/
theorem sum_cols {M : Type} [AddCommMonoid M] (h : Fin 80 → M) :
    ∑ j : Fin 2, h (col j) = h 3 + h 4 := by
  rw [Fin.sum_univ_two]
  rfl

/-- One core: the zero lanes drop out, leaving the kept scores of columns 3 and 4 over its rows. -/
theorem coreSum_eq (X : (⟨2, ![2000000, 80]⟩ : Shape).Idx → EReal) (a : Fin 2) :
    coreSum X a =
      (∑ k : Fin 20, ∑ r : Fin 50000, keep (X (ix2 (row a k r) 3))) +
      (∑ k : Fin 20, ∑ r : Fin 50000, keep (X (ix2 (row a k r) 4))) := by
  rw [← sum_lanes (fun l : Fin 80 => ∑ k : Fin 20, ∑ r : Fin 50000, keep (X (ix2 (row a k r) l)))]
  unfold coreSum
  refine Finset.sum_congr rfl fun l _ => ?_
  by_cases hl : l.val = 3 ∨ l.val = 4
  · simp only [lane, if_pos hl]
  · simp only [lane, if_neg hl, Finset.sum_const_zero]

/-- The two cores together produce the sum, over every row, of the kept scores in columns 3 and 4. -/
theorem sum_cores (X : (⟨2, ![2000000, 80]⟩ : Shape).Idx → EReal) :
    ∑ a : Fin 2, coreSum X a = total X := by
  simp only [coreSum_eq, Finset.sum_add_distrib]
  rw [sum_rows (fun R => keep (X (ix2 R 3))), sum_rows (fun R => keep (X (ix2 R 4))),
    ← Finset.sum_add_distrib]
  unfold total
  refine Finset.sum_congr rfl fun R _ => ?_
  exact (sum_cols (fun c => keep (X (ix2 R c)))).symm

end Cert.MaskSum

end
-- ==== Proof.KRun.lean ====
/-
  The whole kernel program's result.

  After the region the host adds the two elements of the output array to zero. With element `a` at core `a`'s
  contribution this is the sum over both cores, which regroups into the sum over all rows of the kept scores of
  columns 3 and 4. The argument arrays are never written.
-/
import proofs.«154371_j83133386982264_2_alg».proof.Proof.KOut
import proofs.«154371_j83133386982264_2_alg».proof.Proof.Algebra
import Idealize.ShloMosaic.PureOps.Ideal.Laws
import Idealize.ShloMosaic.Lib.StableHlo.Run

noncomputable section

open Idealize.ShloMosaic Idealize.ShloMosaic.TcCoe Idealize.SL.Sem Idealize.ShloMosaic.ValueIdx

namespace Cert.KernelIdeal.RunValue

open Cert.KernelIdeal Cert.KernelIdeal.Gen Cert.MaskSum Cert.KernelIdeal.OutValue

variable (m : (ℓ : Loc nD τ sig) → Buf (Elt Ideal) ℓ) (ρ : Dev nD → PrngReg)

/-- An element of the two-element output array is named by its core. -/
def coreEquiv : S2x1x1.Idx ≃ Fin 2 where
  toFun j := ⟨(j 0).val, (j 0).isLt⟩
  invFun a := ix3 a (0 : Fin 1) (0 : Fin 1)
  left_inv j := by
    funext b
    match b with
    | ⟨0, _⟩ => rfl
    | ⟨1, _⟩ => exact Fin.ext (by have h1 : (j 1).val < 1 := (j 1).isLt; show 0 = (j 1).val; omega)
    | ⟨2, _⟩ => exact Fin.ext (by have h2 : (j 2).val < 1 := (j 2).isLt; show 0 = (j 2).val; omega)
  right_inv a := rfl

/-- The host's sum of the output array from zero is the sum over the cores, hence the total. -/
theorem reduce_G (c : Dev nD) :
    Host.reduceAdd (F := Ideal) (G m c) (constant (F := Ideal) S_ .f32 0x00000000#32) reducesTo_S2x1x1_S_d0_1_2 h_S_
      = ((fun _ => total (m ((c : Thread nD τ).loc main_arg0))) : S_.Idx → EReal) := by
  funext j
  show Ideal.hostReduceAdd reducesTo_S2x1x1_S_d0_1_2 (G m c) (Ideal.ofBits .f32 0x00000000#32) j = _
  rw [Ideal.hostReduceAdd_total _ (fun b => b.elim0), Ideal.ofBits_zero_f32, zero_add, ← sum_cores]
  exact Fintype.sum_equiv coreEquiv _ _ (fun j => rfl)

/-- What the lines after the region leave in the result buffer. -/
theorem tail_eq (c : Dev nD) :
    Pipeline.afterTail₀ cfgs (dats m) 0 (V0 m) [hostOps1] c main_v1
      = ((fun _ => total (m ((c : Thread nD τ).loc main_arg0))) : S_.Idx → EReal) := by
  unfold Pipeline.afterTail₀
  show StableHlo.after hostOps1 _ (Proc.devRef .tc main_v1) = _
  after_results
  refine (congrArg (fun A => Host.reduceAdd (F := Ideal) A (constant (F := Ideal) S_ .f32 0x00000000#32) reducesTo_S2x1x1_S_d0_1_2 h_S_)
    ((Pipeline.withArrays_arr spec0 launch0.win.arr_inj c _ _ 1).trans (final m c))).trans ?_
  exact reduce_G m c

/-- The run: the result at the total, the arguments unchanged. -/
theorem run : θ_run defs (onTc (τ := τ) (main (F := Ideal))) ⟨m, fun _ => 0, ρ⟩ (fun r => ∀ c : Dev nD,
      r.2.mem ((c.tc : Thread nD τ).loc main_v1) = ((fun _ => total (m ((c.tc : Thread nD τ).loc main_arg0))) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v1 (Pipeline.mem_restRefs_of main_v1 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.RunValue

end
-- ==== Proof.RefRun.lean ====
/-
  The reference program as a straight line of host operations, and its run: from any memory with zero counters
  every weakly fair execution terminates with the result buffer at the operations' composed term of the first
  argument's launch contents, the two arguments unchanged. The call of the outlined select function is listed
  in place as its two operations (the splat of the zero, then the select) over the call's own buffers.
-/
import proofs.«154371_j83133386982264_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The column table: the two class indices, as the literal lists them. -/
abbrev cols : (⟨S2, .i32⟩ : BufTy).Contents (Elt F) := fun i => lit0 (S2.rowMajor i)

/-- The start indices of the gather: a negative column index wrapped by the row length (none is), laid out as one
    index vector per column. -/
abbrev starts : (⟨S2x1, .i32⟩ : BufTy).Contents (Elt F) :=
  broadcastInDim S2x1 ![0] bcast_S2_S2x1_0
    (select (cmpi .slt (cols (F := F)) (broadcastInDim S2 ![] bcast_S_S2 (constantI S_ 32 0#32)))
      (addi (cols (F := F)) (broadcastInDim S2 ![] bcast_S_S2 (constantI S_ 32 80#32))) (cols (F := F)))

/-- The two gathered columns of a score array. -/
abbrev gathered (X : (⟨S2000000x80, .f32⟩ : BufTy).Contents (Elt F)) : (⟨S2000000x2, .f32⟩ : BufTy).Contents (Elt F) :=
  Host.gather gather_S2000000x80_S2x1_S2000000x2_0_1_n_n_1_1_20000001 X (starts (F := F))

/-- The gathered scores with those below the threshold replaced by zero. -/
abbrev masked (X : (⟨S2000000x80, .f32⟩ : BufTy).Contents (Elt F)) : (⟨S2000000x2, .f32⟩ : BufTy).Contents (Elt F) :=
  select (cmpf .oge (gathered X) (broadcastInDim S2000000x2 ![] bcast_S_S2000000x2 (constant S_ .f32 0x3E4CCCCD#32)))
    (gathered X) (broadcastInDim S2000000x2 ![] bcast_S_S2000000x2 (constant S_ .f32 0x00000000#32))

/-- What the program computes from the score array: the sum of the masked scores over both axes, from zero. -/
def result (X : (⟨S2000000x80, .f32⟩ : BufTy).Contents (Elt F)) : (⟨S_, .f32⟩ : BufTy).Contents (Elt F) :=
  Host.reduceAdd (masked X) (constant S_ .f32 0x00000000#32) reducesTo_S2000000x2_S_d0_1 h_S_

/-- @main's operations in order, the call unfolded into its two. -/
abbrev ops : List (HloOp τ sig (Elt F)) :=
  [ nullary main_c (fun i => lit0 (S2.rowMajor i)),
    nullary main_c_0 (constantI S_ 32 0#32),
    unary main_c_0 main_v0 (broadcastInDim S2 ![] bcast_S_S2 : (⟨S_, .i32⟩ : BufTy).Contents (Elt F) → (⟨S2, .i32⟩ : BufTy).Contents (Elt F)),
    binary main_c main_v0 main_v1 (cmpi .slt : (⟨S2, .i32⟩ : BufTy).Contents (Elt F) → (⟨S2, .i32⟩ : BufTy).Contents (Elt F) → (⟨S2, .i1⟩ : BufTy).Contents (Elt F)),
    nullary main_c_1 (constantI S_ 32 80#32),
    unary main_c_1 main_v2 (broadcastInDim S2 ![] bcast_S_S2 : (⟨S_, .i32⟩ : BufTy).Contents (Elt F) → (⟨S2, .i32⟩ : BufTy).Contents (Elt F)),
    binary main_c main_v2 main_v3 (addi : (⟨S2, .i32⟩ : BufTy).Contents (Elt F) → (⟨S2, .i32⟩ : BufTy).Contents (Elt F) → (⟨S2, .i32⟩ : BufTy).Contents (Elt F)),
    ternary main_v1 main_v3 main_c main_v4 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v4 main_v5 (broadcastInDim S2x1 ![0] bcast_S2_S2x1_0 : (⟨S2, .i32⟩ : BufTy).Contents (Elt F) → (⟨S2x1, .i32⟩ : BufTy).Contents (Elt F)),
    binary main_arg0 main_v5 main_v6 ((fun x i => Host.gather gather_S2000000x80_S2x1_S2000000x2_0_1_n_n_1_1_20000001 x i) : (⟨S2000000x80, .f32⟩ : BufTy).Contents (Elt F) → (⟨S2x1, .i32⟩ : BufTy).Contents (Elt F) → (⟨S2000000x2, .f32⟩ : BufTy).Contents (Elt F)),
    nullary main_cst (constant S_ .f32 0x3E4CCCCD#32),
    unary main_cst main_v7 (broadcastInDim S2000000x2 ![] bcast_S_S2000000x2 : (⟨S_, .f32⟩ : BufTy).Contents (Elt F) → (⟨S2000000x2, .f32⟩ : BufTy).Contents (Elt F)),
    binary main_v6 main_v7 main_v8 (cmpf .oge : (⟨S2000000x2, .f32⟩ : BufTy).Contents (Elt F) → (⟨S2000000x2, .f32⟩ : BufTy).Contents (Elt F) → (⟨S2000000x2, .i1⟩ : BufTy).Contents (Elt F)),
    nullary main_cst_2 (constant S_ .f32 0x00000000#32),
    TRef.unary (.of main_cst_2 : TRef sig ⟨S_, .f32⟩) main_call0.v0 (broadcastInDim S2000000x2 ![] bcast_S_S2000000x2),
    TRef.ternary (.of main_v8 : TRef sig ⟨S2000000x2, .i1⟩) (.of main_v6 : TRef sig ⟨S2000000x2, .f32⟩) main_call0.v0 main_call0.v1 select,
    nullary main_cst_3 (constant S_ .f32 0x00000000#32),
    binary main_v9 main_cst_3 main_v10 ((fun x v => Host.reduceAdd x v reducesTo_S2000000x2_S_d0_1 h_S_) : (⟨S2000000x2, .f32⟩ : BufTy).Contents (Elt F) → (⟨S_, .f32⟩ : BufTy).Contents (Elt F) → (⟨S_, .f32⟩ : BufTy).Contents (Elt F)) ]

set_option maxRecDepth 1024 in
/-- @main is that straight line: the called function unfolded at its call, sequencing reassociated. -/
theorem main_eq (c : Dev nD) : main (F := F) c = seq ops := by
  simp only [main, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., ternary_bufs_sub .., nullary_bufs_sub .., binary_bufs_sub ..⟩

/-- The result buffer after the line: each operation's function at its operands' contents, down to the first
    argument's; the typed references of the called function carry contents along the identity. -/
theorem v10_eq (V : Valuation τ sig (Elt F)) :
    after ops V (main_v10 : DevRef τ sig) = result (V (main_arg0 : DevRef τ sig)) := by
  after_results_simp
  simp only [TRef.ofBuf, TRef.toBuf, cast_cast, cast_eq]
  rfl

/-- No operation writes the first argument. -/
theorem arg0_eq (V : Valuation τ sig (Elt F)) :
    after ops V (main_arg0 : DevRef τ sig) = V (main_arg0 : DevRef τ sig) := by
  after_results_simp

/-- No operation writes the second argument. -/
theorem arg1_eq (V : Valuation τ sig (Elt F)) :
    after ops V (main_arg1 : DevRef τ sig) = V (main_arg1 : DevRef τ sig) := by
  after_results_simp

/-- On every device, for any float values, from any memory with zero counters: every weakly fair execution of
    @main terminates with the result buffer at `result` of the first argument's contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = result (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v10).trans (v10_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  The reference's result as the shared specification's total.

  The gather reads, for result column j, the operand's column at the j-th start index, read signed and clamped
  into the row; the two start indices are the table's 3 and 4 (neither is negative, so neither is wrapped), so
  result element (r, j) is the score at (r, col j). The mask and the select keep it when it is at least the
  threshold, and the reduction from zero over both axes is the double sum over rows and the two columns.
-/
import proofs.«154371_j83133386982264_2_alg».proof.Proof.RefRun
import proofs.«154371_j83133386982264_2_alg».proof.Proof.Spec
import Idealize.ShloMosaic.Lib.IdealHost

noncomputable section

open scoped BigOperators

namespace Cert.ReferenceIdeal.RefValue

open Idealize.ShloMosaic Idealize.ShloMosaic.TcCoe Idealize.SL.Sem Cert.ReferenceIdeal
open Idealize.ShloMosaic.ValueIdx

/-! ## A gather of whole columns, read at an index -/

section Cols
variable {α : Type}

/-- The dimension numbers of `x[:, idx]` for an operand `[N, C]`, start indices `[K, 1]` and a result `[N, K]`:
    the result's axis 0 is the operand's whole axis 0, the operand's axis 1 is collapsed and started at the index. -/
abbrev colDims (N C K : Nat) (wf : GatherDims.WF ⟨2, ![N, C]⟩ ⟨2, ![K, 1]⟩ ⟨2, ![N, K]⟩ [0] [1] [] [1] [] 1 ![N, 1]) :
    GatherDims ⟨2, ![N, C]⟩ ⟨2, ![K, 1]⟩ ⟨2, ![N, K]⟩ where
  offsetDims := [0]
  collapsedSliceDims := [1]
  operandBatchingDims := []
  startIndicesBatchingDims := []
  startIndexMap := [1]
  indexVectorDim := 1
  sliceSizes := ![N, 1]
  wf := wf

/-- The start-indices index `[j, 0]` of result index `(r, j)`. -/
abbrev colIdx {N K : Nat} (y : (⟨2, ![N, K]⟩ : Shape).Idx) : (⟨2, ![K, 1]⟩ : Shape).Idx :=
  fun a => match a with | ⟨0, _⟩ => ⟨(y 1).val, idx2_lt1 y⟩ | ⟨1, _⟩ => ⟨0, Nat.one_pos⟩

/-- The gather read at `(r, j)`: the operand at row `r` and the column `idx[j, 0]`, read signed and clamped into
    `[0, C − 1]`. -/
theorem gather_cols_apply {N C K w : Nat} (hC : 0 < C)
    (wf : GatherDims.WF ⟨2, ![N, C]⟩ ⟨2, ![K, 1]⟩ ⟨2, ![N, K]⟩ [0] [1] [] [1] [] 1 ![N, 1])
    (x : (⟨2, ![N, C]⟩ : Shape).Idx → α) (idx : IVec ⟨2, ![K, 1]⟩ w) (y : (⟨2, ![N, K]⟩ : Shape).Idx) :
    Host.gather (colDims N C K wf) x idx y
      = x (ix2 ⟨(y 0).val, idx2_lt0 y⟩ ⟨min (idx (colIdx y)).toInt.toNat (C - 1), by omega⟩) := by
  unfold Host.gather
  congr 1
  funext a
  refine Fin.ext ?_
  match a with
  | ⟨0, _⟩ =>
    show (colDims N C K wf).start y idx 0 + (colDims N C K wf).batchCoord y 0 + (colDims N C K wf).offCoord y 0 = _
    rw [GatherDims.batchCoord_eq_zero _ _ _ List.not_mem_nil]
    unfold GatherDims.start
    rw [dif_neg (show (0 : Fin 2) ∉ (colDims N C K wf).startIndexMap from
      (by decide : (0 : Fin 2) ∉ [(1 : Fin 2)]))]
    simp only [Nat.add_zero, Nat.zero_add]
    rfl
  | ⟨1, _⟩ =>
    show (colDims N C K wf).start y idx 1 + (colDims N C K wf).batchCoord y 1 + (colDims N C K wf).offCoord y 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims N C K wf).startIndexMap from List.mem_singleton.mpr rfl)]
    have hsi : (colDims N C K wf).siIdx y ⟨List.idxOf (1 : Fin 2) (colDims N C K wf).startIndexMap,
        List.idxOf_lt_length_iff.2 (List.mem_singleton.mpr rfl)⟩ = colIdx y := by
      funext b; refine Fin.ext ?_
      match b with
      | ⟨0, _⟩ => rfl
      | ⟨1, _⟩ => rfl
    rw [hsi]
    rfl

end Cols

/-! ## The start indices -/

/-- The column the gather reads for result column `j`: the start index — the table's entry, not negative and so
    not wrapped — read signed and clamped into the row is the class column. -/
theorem start_col (r : Fin 2000000) (j : Fin 2) :
    min (RefRun.starts (F := Ideal) (colIdx (ix2 r j))).toInt.toNat (80 - 1) = (Cert.MaskSum.col j).val := by
  match j with
  | ⟨0, _⟩ => rfl
  | ⟨1, _⟩ => rfl

/-! ## The value -/

/-- The gathered array at `(r, j)` is the score at row `r` and the class column `col j`. -/
theorem gathered_apply (X : S2000000x80.Idx → EReal) (r : Fin 2000000) (j : Fin 2) :
    RefRun.gathered (F := Ideal) X (ix2 r j) = X (ix2 r (Cert.MaskSum.col j)) := by
  refine (gather_cols_apply (N := 2000000) (C := 80) (K := 2) (by decide) _ X (RefRun.starts (F := Ideal)) (ix2 r j)).trans ?_
  exact congrArg (fun c => X (ix2 r c)) (Fin.ext (start_col r j))

/-- The masked array at `(r, j)`: the score at `(r, col j)` kept when it is at least the threshold, else zero. The
    two splats read the scalar constants at every index. -/
theorem masked_apply (X : S2000000x80.Idx → EReal) (r : Fin 2000000) (j : Fin 2) :
    RefRun.masked (F := Ideal) X (ix2 r j) = Cert.MaskSum.keep (X (ix2 r (Cert.MaskSum.col j))) := by
  show Scalar.select (Ideal.cmp .oge (RefRun.gathered (F := Ideal) X (ix2 r j)) (Ideal.ofBits .f32 0x3E4CCCCD#32))
      (RefRun.gathered (F := Ideal) X (ix2 r j)) (Ideal.ofBits .f32 0x00000000#32) = _
  rw [gathered_apply, Ideal.ofBits_zero_f32]
  rfl

/-- The reduction from zero over both axes is the double sum over the rows and the two columns: the shared total. -/
theorem result_eq (X : S2000000x80.Idx → EReal) :
    RefRun.result (F := Ideal) X = fun _ => Cert.MaskSum.total X := by
  funext k
  unfold RefRun.result
  rw [hostReduceAdd_apply, Ideal.hostReduceAdd_total _ (fun b => b.elim0), constant_apply, Ideal.ofBits_zero_f32,
    zero_add, sum_idx2]
  unfold Cert.MaskSum.total
  exact Finset.sum_congr rfl fun r _ => Finset.sum_congr rfl fun j _ => masked_apply X r j

/-! ## The run -/

/-- On every device, from any memory with zero counters: every weakly fair execution of the reference terminates
    with its result buffer holding the shared total of the first argument's contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10) = (fun _ => Cert.MaskSum.total (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun _ h c => ⟨(h c).1.trans (result_eq _), (h c).2.1, (h c).2.2⟩)
    (RefRun.run m ρ)

end Cert.ReferenceIdeal.RefValue

end
-- ==== Proof.lean ====
/-
  The kernel against its reference: the sum of the thresholded scores of two class columns.

  The reference takes columns 3 and 4 of the 2 000 000 × 80 score array, keeps a score when it is at least the
  threshold (the f32 word nearest to 0.2) and replaces it by zero otherwise, and sums the 4 000 000 results from
  zero. The kernel streams the array through 40 blocks of 50 000 rows, 20 to each of two cores. For each block
  it masks all 80 lanes at once (a lane other than 3 and 4, or a score below the same threshold word, gives
  zero), sums the block's rows lane by lane and adds that row of 80 partial sums to a scratch row that was
  zeroed at the core's first block; at the core's last block the scratch row is summed across its lanes into
  the core's one output element, and the host adds the two elements from zero.

  On the extended reals both are the same sum of the same terms: a masked-out lane contributes an exact zero,
  and what remains is the kept scores of columns 3 and 4 over all rows, grouped by (core, block, row in block)
  on the kernel's side and by row on the reference's. Addition of extended reals is commutative and associative,
  so regrouping needs no finiteness and the precondition is never opened. The ideal pass rewrote nothing, so
  the idealization claim is trivial.

  The modules: Spec (the common function), Pay (the body's three payloads read at an index), KPieces (what each
  control case leaves), KBlock (where blocks sit in their arrays), KAcc (the running sums, by induction on the
  grid point), KOut (the output array after the region), KRun (the host's final sum and the run), Algebra (the
  regrouping of the sums), RefRun and RefValue (the reference's run and its result).
-/
import proofs.«154371_j83133386982264_2_alg».proof.Defs
import proofs.«154371_j83133386982264_2_alg».proof.Proof.Gen.Kernel
import proofs.«154371_j83133386982264_2_alg».proof.Proof.Gen.Kernel.Frame
import proofs.«154371_j83133386982264_2_alg».proof.Proof.Gen.KernelIdeal
import proofs.«154371_j83133386982264_2_alg».proof.Proof.Gen.KernelIdeal.Frame
import proofs.«154371_j83133386982264_2_alg».proof.Proof.Gen.ReferenceIdeal
import proofs.«154371_j83133386982264_2_alg».proof.Proof.Gen.Pre_finite_inputs
import proofs.«154371_j83133386982264_2_alg».proof.Proof.KRun
import proofs.«154371_j83133386982264_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RefValue.run m ρ)

/-- No operation of the kernel was rewritten for the ideal reading. -/
theorem preserves : Cert.preserves_Kernel_KernelIdeal := trivial

/-- Both programs end with the total of the kept scores of columns 3 and 4, of arguments that agree. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.RefValue.run m' ρ')
  rw [(hagree c).1]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
